-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x1600000 : Shape := ⟨2, ![2, 1600000]⟩
abbrev S16x128 : Shape := ⟨2, ![16, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x16 .f32) (main_arg1 : IVec S2x1600000 32) (main_arg2 : FVec F S16x128 .f32) (main_arg3 : FVec F S128 .f32) (main_arg4 : FVec F S128x2 .f32) (main_arg5 : FVec F S2 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x128 .f32 := Host.absf main_arg2
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x2 .f32 := Host.absf main_arg4
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_arg5 main_v13 main_v16
-- ==== Kernel.lean ====
abbrev S100000x16 : Shape := ⟨2, ![100000, 16]⟩
abbrev S2x1600000 : Shape := ⟨2, ![2, 1600000]⟩
abbrev S16x128 : Shape := ⟨2, ![16, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x16 : Shape := ⟨2, ![5000, 16]⟩
abbrev S5000x128 : Shape := ⟨2, ![5000, 128]⟩
abbrev S1700000x128 : Shape := ⟨2, ![1700000, 128]⟩
abbrev S1x128 : Shape := ⟨2, ![1, 128]⟩
abbrev S100000x2 : Shape := ⟨2, ![100000, 2]⟩
abbrev S5000x2 : Shape := ⟨2, ![5000, 2]⟩
abbrev S1700000x2 : Shape := ⟨2, ![1700000, 2]⟩
abbrev S1x2 : Shape := ⟨2, ![1, 2]⟩

abbrev nBuf : Space → Nat
  | .hbm => 87
  | .vmem => 15
  | .smem => 0
  | _ => 0

abbrev bufTy : (tb : Table) → Fin (tcTables nBuf tb) → BufTy
  | .hbm, ⟨0, _⟩ => ⟨S100000x16, .f32⟩
  | .hbm, ⟨1, _⟩ => ⟨S2x1600000, .i32⟩
  | .hbm, ⟨2, _⟩ => ⟨S16x128, .f32⟩
  | .hbm, ⟨3, _⟩ => ⟨S128, .f32⟩
  | .hbm, ⟨4, _⟩ => ⟨S128x2, .f32⟩
  | .hbm, ⟨5, _⟩ => ⟨S2, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x2, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x2, .f32⟩
  | .hbm, ⟨77, _⟩ => ⟨S1700000x1, .f32⟩
  | .hbm, ⟨78, _⟩ => ⟨S1700000x2, .f32⟩
  | .hbm, ⟨79, _⟩ => ⟨S1700000x2, .f32⟩
  | .hbm, ⟨80, _⟩ => ⟨S_, .f32⟩
  | .hbm, ⟨81, _⟩ => ⟨S100000x2, .f32⟩
  | .hbm, ⟨82, _⟩ => ⟨S1700000x1, .i32⟩
  | .hbm, ⟨83, _⟩ => ⟨S100000x2, .f32⟩
  | .hbm, ⟨84, _⟩ => ⟨S1x2, .f32⟩
  | .hbm, ⟨85, _⟩ => ⟨S100000x2, .f32⟩
  | .hbm, ⟨86, _⟩ => ⟨S100000x2, .f32⟩
  | .local _ .vmem, ⟨0, _⟩ => ⟨S5000x16, .f32⟩
  | .local _ .vmem, ⟨1, _⟩ => ⟨S5000x16, .f32⟩
  | .local _ .vmem, ⟨2, _⟩ => ⟨S16x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x2, .f32⟩
  | .local _ .vmem, ⟨13, _⟩ => ⟨S5000x2, .f32⟩
  | .local _ .vmem, ⟨14, _⟩ => ⟨S5000x2, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x2_S128x2_0_0 : ∀ a, (![0, 0] : Fin 2 → Nat) a + S128x2.size a ≤ S128x2.size a
  h_S128x2 : 0 < S128x2.numel
  inb_S5000x2_S5000x2_0_0 : ∀ a, (![0, 0] : Fin 2 → Nat) a + S5000x2.size a ≤ S5000x2.size a
  h_S5000x2 : 0 < S5000x2.numel
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x16_S16x128_S5000x128_1_0_0_1_n_n_wf : DotDims.WF S5000x16 S16x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x2_S5000x2_1_0_0_1_n_n_wf : DotDims.WF S5000x128 S128x2 S5000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x2.size a ≤ S128x2.size a
  hwx2_1 : ∀ i : grid2.Coords, EltTy.bits .f32 = 32 ∨ (Rect.block (s := S128x2) S128x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x2.size a ≤ S100000x2.size a
  hwx2_2 : ∀ i : grid2.Coords, EltTy.bits .f32 = 32 ∨ (Rect.block (s := S100000x2) S5000x2.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x16 : Shape := ⟨2, ![100000, 16]⟩
abbrev S2x1600000 : Shape := ⟨2, ![2, 1600000]⟩
abbrev S16x128 : Shape := ⟨2, ![16, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S100000x128 : Shape := ⟨2, ![100000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x2 : Shape := ⟨2, ![100000, 2]⟩
abbrev S1700000x2 : Shape := ⟨2, ![1700000, 2]⟩
abbrev S1x2 : Shape := ⟨2, ![1, 2]⟩

abbrev nBuf : Space → Nat
  | .hbm => 129
  | .vmem => 0
  | .smem => 0
  | _ => 0

abbrev hbmTy0_0 (i : Nat) : BufTy := match i % 128 with
  | 0 => ⟨S100000x16, .f32⟩
  | 1 => ⟨S2x1600000, .i32⟩
  | 2 => ⟨S16x128, .f32⟩
  | 3 => ⟨S128, .f32⟩
  | 4 => ⟨S128x2, .f32⟩
  | 5 => ⟨S2, .f32⟩
  | 6 => ⟨S1x1600000, .i32⟩
  | 7 => ⟨S1600000, .i32⟩
  | 8 => ⟨S1x1600000, .i32⟩
  | 9 => ⟨S1600000, .i32⟩
  | 10 => ⟨S100000x128, .f32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x2, .f32⟩
  | 72 => ⟨S100000, .i32⟩
  | 73 => ⟨S1700000, .i32⟩
  | 74 => ⟨S1700000, .i32⟩
  | 75 => ⟨S_, .f32⟩
  | 76 => ⟨S1700000, .f32⟩
  | 77 => ⟨S_, .f32⟩
  | 78 => ⟨S100000, .f32⟩
  | 79 => ⟨S1700000x1, .i32⟩
  | 80 => ⟨S100000, .f32⟩
  | 81 => ⟨S_, .f32⟩
  | 82 => ⟨S100000, .f32⟩
  | 83 => ⟨S100000, .i1⟩
  | 84 => ⟨S_, .f32⟩
  | 85 => ⟨S100000, .f32⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x2, .f32⟩
  | 119 => ⟨S1700000x1, .f32⟩
  | 120 => ⟨S1700000x2, .f32⟩
  | 121 => ⟨S1700000x2, .f32⟩
  | 122 => ⟨S_, .f32⟩
  | 123 => ⟨S100000x2, .f32⟩
  | 124 => ⟨S1700000x1, .i32⟩
  | 125 => ⟨S100000x2, .f32⟩
  | 126 => ⟨S1x2, .f32⟩
  | 127 => ⟨S100000x2, .f32⟩
  | _ => ⟨S100000x16, .f32⟩

abbrev hbmTy0_1 (i : Nat) : BufTy := match i % 128 with
  | 0 => ⟨S100000x2, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_cst_14 : Ref sig .tc := ⟨.hbm, 87, rfl⟩
abbrev main_call2_v0 : Ref sig .tc := ⟨.hbm, 88, rfl⟩
abbrev main_call2_v1 : Ref sig .tc := ⟨.hbm, 89, rfl⟩
abbrev main_v61 : Ref sig .tc := ⟨.hbm, 90, rfl⟩
abbrev main_c_15 : Ref sig .tc := ⟨.hbm, 91, rfl⟩
abbrev main_v62 : Ref sig .tc := ⟨.hbm, 92, rfl⟩
abbrev main_v63 : Ref sig .tc := ⟨.hbm, 93, rfl⟩
abbrev main_c_16 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_17 : Ref sig .tc := ⟨.hbm, 100, rfl⟩
abbrev main_v69 : Ref sig .tc := ⟨.hbm, 101, rfl⟩
abbrev main_v70 : Ref sig .tc := ⟨.hbm, 102, rfl⟩
abbrev main_c_18 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_19 : Ref sig .tc := ⟨.hbm, 110, rfl⟩
abbrev main_v77 : Ref sig .tc := ⟨.hbm, 111, rfl⟩
abbrev main_v78 : Ref sig .tc := ⟨.hbm, 112, rfl⟩
abbrev main_c_20 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_21 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x16_S16x128_S100000x128_1_0_0_1_n_n_wf : DotDims.WF S100000x16 S16x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x2_S100000x2_1_0_0_1_n_n_wf : DotDims.WF S100000x128 S128x2 S100000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1

variable [Facts₀]

def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

class Facts : Prop extends Facts₀ where

variable [Facts]
-- ==== Proof.KernelRun.lean ====
/-
  The idealized kernel's run with its result named. @main is eight segments — three stretches of host operations,
  the first projection's region, a stretch, the bias-and-rectifier region, the second projection's region, a last
  stretch — and the contents of every buffer at each boundary are a fold from the launch memory (`Gen.W0` … `Gen.W8`).
  Every weakly fair execution terminates, nothing faulting, with the result buffer holding what the last boundary's
  contents `Gen.W8` hold there and the six argument arrays as launched. What `Gen.W8` holds at the result is read, one
  boundary at a time, in the modules that import this one.
-/
import proofs.«101370_j10874857193730_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the segments chained from the launch memory to the last boundary, every unscoped buffer of the final state
    read against that boundary's contents; the result buffer is one of them, and each argument's contents there are
    its launch contents. -/
theorem run : θ_run defs (onTc (τ := τ) (main (F := F))) ⟨m, fun _ => 0, ρ⟩ (fun r => ∀ c : Dev nD,
      r.2.mem ((c.tc : Thread nD τ).loc main_v63) = W8 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v63 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.RegionIdx.lean ====
/-
  Which entries of its factors an entry of a matrix product reads, and which entry of a row vector a row-wise sum reads.
  Entry (r, q) of a product of an [n, K] matrix with a [K, M] matrix is the sum over k of entry (r, k) of the left
  factor times entry (k, q) of the right one; entry (r, q) of a [n, M] array plus a [1, M] row reads the row at (0, q).
  The extents are those of the two projections of this network: 100000 nodes, 16 input features, 128 hidden features,
  2 output features.
-/
import proofs.«101370_j10874857193730_1_alg».proof.KernelIdeal

namespace Cert.KernelIdeal.RegionValue

open Cert.KernelIdeal Idealize.ShloMosaic

/-- Entry (r, k) of the [100000, 16] left factor, for the product's entry `i = (r, q)`. -/
abbrev lidx1 (i : S100000x128.Idx) (k : Fin 16) : S100000x16.Idx := fun a => match a with
  | ⟨0, _⟩ => ⟨(i 0).val, (i 0).isLt⟩
  | ⟨1, _⟩ => ⟨k.val, k.isLt⟩
/-- Entry (k, q) of the [16, 128] right factor, for the product's entry `i = (r, q)`. -/
abbrev ridx1 (i : S100000x128.Idx) (k : Fin 16) : S16x128.Idx := fun a => match a with
  | ⟨0, _⟩ => ⟨k.val, k.isLt⟩
  | ⟨1, _⟩ => ⟨(i 1).val, (i 1).isLt⟩
/-- Entry (r, k) of the [100000, 128] left factor, for the product's entry `i = (r, q)`. -/
abbrev lidx2 (i : S100000x2.Idx) (k : Fin 128) : S100000x128.Idx := fun a => match a with
  | ⟨0, _⟩ => ⟨(i 0).val, (i 0).isLt⟩
  | ⟨1, _⟩ => ⟨k.val, k.isLt⟩
/-- Entry (k, q) of the [128, 2] right factor, for the product's entry `i = (r, q)`. -/
abbrev ridx2 (i : S100000x2.Idx) (k : Fin 128) : S128x2.Idx := fun a => match a with
  | ⟨0, _⟩ => ⟨k.val, k.isLt⟩
  | ⟨1, _⟩ => ⟨(i 1).val, (i 1).isLt⟩
/-- Entry (0, q) of a [1, 128] row, for the entry `i = (r, q)` of a [100000, 128] array. -/
abbrev brow (i : S100000x128.Idx) : S1x128.Idx := fun a => match a with
  | ⟨0, _⟩ => ⟨0, Nat.one_pos⟩
  | ⟨1, _⟩ => ⟨(i 1).val, (i 1).isLt⟩

end Cert.KernelIdeal.RegionValue
-- ==== Proof.Region0.lean ====
/-
  The first projection's region: the array it leaves is the matrix product of its two operand arrays, entry by entry.
  (the body's arithmetic at an entry is a sum of sixteen products; each grid point writes back 5000 rows of it; the twenty blocks cover the array)
-/
import proofs.«101370_j10874857193730_1_alg».proof.Proof.Gen.KernelIdeal.Frame
import proofs.«101370_j10874857193730_1_alg».proof.Proof.RegionIdx
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem

-- the buffer contents when the region is entered
variable (V : (c : Dev nD) → (b : Ref sig .tc) → Buf (Elt Ideal) ((c : Thread nD τ).loc b))

/-! ## The body's arithmetic at an index -/

theorem lhs_row_0 (j : S5000x128.Idx) (q : dot_S5000x16_S16x128_S5000x128_1_0_0_1_n_n.contr.Idx) :
    (dot_S5000x16_S16x128_S5000x128_1_0_0_1_n_n.lhsIdx j q 0).val = (j 0).val := by
  unfold DotDims.lhsIdx
  rw [dif_neg (show ¬(0 : Fin S5000x16.rank) ∈ dot_S5000x16_S16x128_S5000x128_1_0_0_1_n_n.lhsBatch by decide), dif_pos (show (0 : Fin S5000x16.rank) ∈ dot_S5000x16_S16x128_S5000x128_1_0_0_1_n_n.lhsNonContracting by decide)]
  rfl
theorem lhs_col_0 (j : S5000x128.Idx) (q : dot_S5000x16_S16x128_S5000x128_1_0_0_1_n_n.contr.Idx) :
    (dot_S5000x16_S16x128_S5000x128_1_0_0_1_n_n.lhsIdx j q 1).val = (q ⟨0, by decide⟩).val :=
  dot_S5000x16_S16x128_S5000x128_1_0_0_1_n_n.lhsIdx_val_of_single rfl j q
theorem rhs_row_0 (j : S5000x128.Idx) (q : dot_S5000x16_S16x128_S5000x128_1_0_0_1_n_n.contr.Idx) :
    (dot_S5000x16_S16x128_S5000x128_1_0_0_1_n_n.rhsIdx j q 0).val = (q ⟨0, by decide⟩).val :=
  dot_S5000x16_S16x128_S5000x128_1_0_0_1_n_n.rhsIdx_val_of_single rfl j q
theorem rhs_col_0 (j : S5000x128.Idx) (q : dot_S5000x16_S16x128_S5000x128_1_0_0_1_n_n.contr.Idx) :
    (dot_S5000x16_S16x128_S5000x128_1_0_0_1_n_n.rhsIdx j q 1).val = (j 1).val := by
  unfold DotDims.rhsIdx
  rw [dif_neg (show ¬(1 : Fin S16x128.rank) ∈ dot_S5000x16_S16x128_S5000x128_1_0_0_1_n_n.rhsBatch by decide), dif_pos (show (1 : Fin S16x128.rank) ∈ dot_S5000x16_S16x128_S5000x128_1_0_0_1_n_n.rhsNonContracting by decide)]
  rfl

/-- Entry (p, k) of a [5000, 16] block of the left factor, for the block product's entry `j = (p, q)`. -/
abbrev lblk_0 (j : S5000x128.Idx) (k : Fin 16) : S5000x16.Idx := fun a => match a with
  | ⟨0, _⟩ => ⟨(j 0).val, (j 0).isLt⟩
  | ⟨1, _⟩ => ⟨k.val, k.isLt⟩
/-- Entry (k, q) of the [16, 128] right factor, for the block product's entry `j = (p, q)`. -/
abbrev rblk_0 (j : S5000x128.Idx) (k : Fin 16) : S16x128.Idx := fun a => match a with
  | ⟨0, _⟩ => ⟨k.val, k.isLt⟩
  | ⟨1, _⟩ => ⟨(j 1).val, (j 1).isLt⟩

/-- The body's arithmetic, entry by entry: a change of float format is the identity on the extended reals, and a
    matrix product into a zero accumulator is the sum of the sixteen products along the contracted axis. -/
theorem pay_apply_0 (x0 : Vec Ideal S5000x16 .f32) (x1 : Vec Ideal S16x128 .f32) (j : S5000x128.Idx) :
    k0_pay1 (F := Ideal) x0 x1 j = ∑ k : Fin 16, x0 (lblk_0 j k) * x1 (rblk_0 j k) := by
  unfold k0_pay1
  refine (Ideal.matmul_constant_zero_apply dot_S5000x16_S16x128_S5000x128_1_0_0_1_n_n none _ _ j).trans ?_
  rw [← Equiv.sum_comp (ValueIdx.contrEquiv1 dot_S5000x16_S16x128_S5000x128_1_0_0_1_n_n 16 rfl rfl).symm]
  refine Finset.sum_congr rfl fun k _ => ?_
  have hk := ValueIdx.contrEquiv1_symm_val dot_S5000x16_S16x128_S5000x128_1_0_0_1_n_n 16 rfl rfl k
  have el : dot_S5000x16_S16x128_S5000x128_1_0_0_1_n_n.lhsIdx j ((ValueIdx.contrEquiv1 dot_S5000x16_S16x128_S5000x128_1_0_0_1_n_n 16 rfl rfl).symm k) = lblk_0 j k := funext fun a => Fin.ext (by
    match a with
    | ⟨0, _⟩ => exact lhs_row_0 _ _
    | ⟨1, _⟩ => exact (lhs_col_0 _ _).trans hk)
  have er : dot_S5000x16_S16x128_S5000x128_1_0_0_1_n_n.rhsIdx j ((ValueIdx.contrEquiv1 dot_S5000x16_S16x128_S5000x128_1_0_0_1_n_n 16 rfl rfl).symm k) = rblk_0 j k := funext fun a => Fin.ext (by
    match a with
    | ⟨0, _⟩ => exact (rhs_row_0 _ _).trans hk
    | ⟨1, _⟩ => exact rhs_col_0 _ _)
  rw [el, er]
  rfl

/-- The matrix product of the two operand arrays, entry by entry. -/
abbrev G_0 (a0 : (⟨S100000x16, .f32⟩ : BufTy).Contents (Elt Ideal)) (a2 : (⟨S16x128, .f32⟩ : BufTy).Contents (Elt Ideal)) :
    (⟨S100000x128, .f32⟩ : BufTy).Contents (Elt Ideal) := fun i => ∑ k : Fin 16, a0 (lidx1 i k) * a2 (ridx1 i k)

/-- Entry `j` of the body's result on two blocks is entry `i` of the arrays' product, when row `j 0` of the left block is row
    `i 0` of the left array and column `j 1` of the right block is column `i 1` of the right array. -/
theorem blk_eq_0 (x0 : Vec Ideal S5000x16 .f32) (x1 : Vec Ideal S16x128 .f32)
    (a0 : (⟨S100000x16, .f32⟩ : BufTy).Contents (Elt Ideal)) (a2 : (⟨S16x128, .f32⟩ : BufTy).Contents (Elt Ideal))
    (i : S100000x128.Idx) (j : S5000x128.Idx)
    (h0 : ∀ k : Fin 16, x0 (lblk_0 j k) = a0 (lidx1 i k)) (h1 : ∀ k : Fin 16, x1 (rblk_0 j k) = a2 (ridx1 i k)) :
    k0_pay1 (F := Ideal) x0 x1 j = G_0 a0 a2 i := by
  refine (pay_apply_0 x0 x1 j).trans ?_
  exact Finset.sum_congr rfl fun k _ => by rw [h0 k, h1 k]

/-! ## From blocks to the array -/

theorem hz_0 : (![0, 0] : Fin 2 → Nat) = fun _ => 0 := funext fun a => by fin_cases a <;> rfl

/-- The printed block-index maps over the grid: the left factor's and the product's blocks are at block row `t`, block column 0;
    the right factor's one block is the whole array. -/
theorem idx_facts_0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the operand arrays as the region finds them. -/
theorem flushed_eq_0 (c : Dev nD) (t : Fin cfg0.N) :
    (dat0 (F := Ideal) V c).flushed 2 t = ((cfg0.win 2).blk t).view.read (Elt Ideal) (G_0 (V c main_arg0) (V c main_arg2)) := by
  show (cfg0.win 2).cut (grid0.coords t) ((dat0 (F := Ideal) V c).after 2 t) = _
  rw [after0_2]
  unfold out0_2
  rw [View.canon_unit_zero hz_0]
  simp only [View.ld_unit_zero (S := S5000x16) hz_0, View.ld_unit_zero (S := S16x128) hz_0]
  obtain ⟨e0, e1, e2, e3, e4, e5⟩ := idx_facts_0 t
  funext j
  show k0_pay1 (F := Ideal) (iblk0 V c 0 t) (iblk0 V c 1 t) j = G_0 (V c main_arg0) (V c main_arg2) (((cfg0.win 2).blk t).view.emb j)
  have hj0 : (j 0).val < 5000 := (j 0).isLt
  have hj1 : (j 1).val < 128 := (j 1).isLt
  refine blk_eq_0 (iblk0 V c 0 t) (iblk0 V c 1 t) (V c main_arg0) (V c main_arg2) (((cfg0.win 2).blk t).view.emb j) j (fun k => ?_) (fun k => ?_)
  · show V c main_arg0 (((cfg0.win 0).blk t).view.emb (lblk_0 j k)) = V c main_arg0 (lidx1 (((cfg0.win 2).blk t).view.emb j) k)
    refine congrArg _ ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 16 + 1 * k.val = k.val; omega
  · show V c main_arg2 (((cfg0.win 1).blk t).view.emb (rblk_0 j k)) = V c main_arg2 (ridx1 (((cfg0.win 2).blk t).view.emb j) k)
    refine congrArg _ ?_
    funext a; apply Fin.ext
    match a with
    | ⟨0, _⟩ => show win0_1.index t (0 : Fin 2) * 16 + 1 * k.val = k.val; omega
    | ⟨1, _⟩ => show win0_1.index t (1 : Fin 2) * 128 + 1 * (j 1).val = win0_2.index t (1 : Fin 2) * 128 + 1 * (j 1).val; omega

/-- An index of the result array is in point `t`'s block iff each coordinate is in the block's range on its axis. -/
theorem mem_blk_0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Every entry of the result array is in the block of the point that handles its row: row `r` belongs to point `r / 5000`. -/
theorem cover_0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨e0, e1, e2, e3, e4, e5⟩ := idx_facts_0 ⟨(i 0).val / 5000, hlt⟩
  refine ⟨⟨(i 0).val / 5000, hlt⟩, flush0_2 _, ?_⟩
  rw [mem_blk_0]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 128 ≤ (i 1).val ∧ (i 1).val < win0_2.index ⟨(i 0).val / 5000, hlt⟩ (1 : Fin 2) * 128 + 128
    rw [e5]; omega

/-- The array the region leaves is the product of its operand arrays. -/
theorem final_0 (c : Dev nD) : (dat0 (F := Ideal) V c).arrAt 2 cfg0.N = G_0 (V c main_arg0) (V c main_arg2) :=
  (dat0 (F := Ideal) V c).arrAt_eq_of_cover 2 (G_0 (V c main_arg0) (V c main_arg2)) (fun t _ => flushed_eq_0 V c t) cover_0

theorem region0_value (c : Dev nD)
    (x0 : (⟨S100000x16, .f32⟩ : BufTy).Contents (Elt Ideal)) (x2 : (⟨S16x128, .f32⟩ : BufTy).Contents (Elt Ideal))
    (y : (⟨S100000x128, .f32⟩ : BufTy).Contents (Elt Ideal))
    (h0 : V c main_arg0 = x0) (h2 : V c main_arg2 = x2) (hy : (dat0 (F := Ideal) V c).arrAt 2 cfg0.N = y) (i : S100000x128.Idx) :
    y i = ∑ k : Fin 16, x0 (lidx1 i k) * x2 (ridx1 i k) := by
  subst h0 h2 hy
  exact congrFun (final_0 V c) i

end Cert.KernelIdeal.RegionValue

end
-- ==== Proof.Region1.lean ====
/-
  The bias-and-rectifier region: the array it leaves is max(a + b, 0), entry by entry, b a row added to every row.
  Each of the 20 grid points writes back the block of 5000 rows of that function its rectangle names, and the blocks tile the array.
-/
import proofs.«101370_j10874857193730_1_alg».proof.Proof.Gen.KernelIdeal.Frame
import proofs.«101370_j10874857193730_1_alg».proof.Proof.RegionIdx
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem

-- the buffer contents when the region is entered
variable (V : (c : Dev nD) → (b : Ref sig .tc) → Buf (Elt Ideal) ((c : Thread nD τ).loc b))

/-- Entry (0, q) of the [1, 128] row, for the entry `j = (p, q)` of a [5000, 128] block. -/
abbrev browB1 (j : S5000x128.Idx) : S1x128.Idx := fun a => match a with
  | ⟨0, _⟩ => ⟨0, Nat.one_pos⟩
  | ⟨1, _⟩ => ⟨(j 1).val, (j 1).isLt⟩

/-- A [1, 128] row broadcast over 5000 rows reads, at (p, q), the row's entry (0, q). -/
theorem bcast_row1 (x1 : Vec Ideal S1x128 .f32) (h : S1x128.Broadcasts S5000x128) (j : S5000x128.Idx) :
    broadcastTo S5000x128 x1 h j = x1 (browB1 j) := by
  refine broadcastTo_apply x1 h j (browB1 j) fun ax => ?_
  match ax with
  | ⟨0, _⟩ => rfl
  | ⟨1, _⟩ => rfl

/-- The body's arithmetic at an entry (p, q) of a block: max(x0 (p, q) + x1 (0, q), 0). The two shape casts are
    identities, the row is broadcast over the block's rows, and the constant zero is broadcast over the block. -/
theorem pay1_apply1 (x0 : Vec Ideal S5000x128 .f32) (x1 : Vec Ideal S1x128 .f32) (j : S5000x128.Idx) :
    k1_pay1 (F := Ideal) x0 x1 j
      = FloatOps.maximumf (FloatOps.addf (x0 j) (x1 (browB1 j))) (FloatOps.ofBits (F := Ideal) .f32 0x00000000#32) := by
  unfold k1_pay1
  show FloatOps.maximumf (F := Ideal) (FloatOps.addf (F := Ideal) (shapeCast S5000x128 (x0 : FVec Ideal S5000x128 .f32) shapeCasts_S5000x128_S5000x128 j)
      (broadcastTo S5000x128 (shapeCast S1x128 (x1 : FVec Ideal S1x128 .f32) shapeCasts_S1x128_S1x128) broadcasts_S1x128_S5000x128 j)) _ = _
  rw [shapeCast_self, shapeCast_self, bcast_row1]
  rfl

/-- The zero offsets of the body's load and store rectangles, as a constant function. -/
theorem hz1 : (![0, 0] : Fin 2 → Nat) = fun _ => 0 := funext fun a => by fin_cases a <;> rfl

/-- The block index maps over the 20 grid points: at point `t` the first operand's block and the result's block are
    block (t, 0); the row operand's block is block (0, 0) at every point. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What the region's result array ends holding: max(a + b, 0), entry by entry, the row b added to every row. -/
abbrev G1 (a : (⟨S100000x128, .f32⟩ : BufTy).Contents (Elt Ideal)) (b : (⟨S1x128, .f32⟩ : BufTy).Contents (Elt Ideal)) :
    (⟨S100000x128, .f32⟩ : BufTy).Contents (Elt Ideal) :=
  fun i => FloatOps.maximumf (FloatOps.addf (a i) (b (brow i))) (FloatOps.ofBits (F := Ideal) .f32 0x00000000#32)

/-- What grid point `t` writes back is block `t` of `G1` of the two operand arrays: entry (p, q) of the first
    operand's block sits at row 5000·t + p, column q of its array, which is where the result's entry (p, q) goes, and the
    row operand's block is the whole row, so its entry (0, q) is the row's entry at the result's column q. -/
theorem flushed_eq1 (c : Dev nD) (t : Fin cfg1.N) :
    (dat1 (F := Ideal) V c).flushed 2 t = ((cfg1.win 2).blk t).view.read (Elt Ideal) (G1 (V c main_v44) (V c main_v45)) := by
  show (cfg1.win 2).cut (grid1.coords t) ((dat1 V c).after 2 t) = _
  rw [after1_2]
  unfold out1_2
  rw [View.canon_unit_zero hz1]
  simp only [View.ld_unit_zero (S := S5000x128) hz1, View.ld_unit_zero (S := S1x128) hz1]
  obtain ⟨e0, e1, e2, e3, e4, e5⟩ := idx_facts1 t
  funext j
  show k1_pay1 (F := Ideal) (iblk1 V c 0 t) (iblk1 V c 1 t) j = G1 (V c main_v44) (V c main_v45) (((cfg1.win 2).blk t).view.emb j)
  refine (pay1_apply1 _ _ j).trans ?_
  show FloatOps.maximumf (F := Ideal) (FloatOps.addf (F := Ideal) (V c main_v44 (((cfg1.win 0).blk t).view.emb j)) (V c main_v45 (((cfg1.win 1).blk t).view.emb (browB1 j)))) _
    = FloatOps.maximumf (F := Ideal) (FloatOps.addf (F := Ideal) (V c main_v44 (((cfg1.win 2).blk t).view.emb j)) (V c main_v45 (brow (((cfg1.win 2).blk t).view.emb j)))) _
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (browB1 j) = brow (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  rw [h0, h1]

/-- An entry of the result array is in point `t`'s block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v46).slice (win1_2.rect t)).set ↔ _
  rw [View.set_slice_whole, Rect.mem_set_unit]
  exact Iff.rfl

/-- The 20 blocks of 5000 rows tile the 100000 rows: row r is in the block of point r / 5000. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by omega⟩, rfl⟩
  obtain ⟨e0, e1, e2, e3, e4, e5⟩ := idx_facts1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The result array after the region: `G1` of the two operand arrays as the region finds them. -/
theorem final1 (c : Dev nD) : (dat1 (F := Ideal) V c).arrAt 2 cfg1.N = G1 (V c main_v44) (V c main_v45) :=
  (dat1 V c).arrAt_eq_of_cover 2 (G1 (V c main_v44) (V c main_v45)) (fun t _ => flushed_eq1 V c t) cover1

theorem region1_value (c : Dev nD)
    (a : (⟨S100000x128, .f32⟩ : BufTy).Contents (Elt Ideal)) (b : (⟨S1x128, .f32⟩ : BufTy).Contents (Elt Ideal))
    (y : (⟨S100000x128, .f32⟩ : BufTy).Contents (Elt Ideal))
    (ha : V c main_v44 = a) (hb : V c main_v45 = b) (hy : (dat1 (F := Ideal) V c).arrAt 2 cfg1.N = y) (i : S100000x128.Idx) :
    y i = FloatOps.maximumf (FloatOps.addf (a i) (b (brow i))) (FloatOps.ofBits (F := Ideal) .f32 0x00000000#32) := by
  subst ha hb hy
  exact congrFun (final1 V c) i

end Cert.KernelIdeal.RegionValue

end
-- ==== Proof.Region2.lean ====
/-
  The second projection's region: the array it leaves is the matrix product of its two operand arrays, entry by entry.
  (the body's arithmetic at an entry is a sum of 128 products; each grid point writes back 5000 rows of it; the twenty blocks cover the array)
-/
import proofs.«101370_j10874857193730_1_alg».proof.Proof.Gen.KernelIdeal.Frame
import proofs.«101370_j10874857193730_1_alg».proof.Proof.RegionIdx
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem

-- the buffer contents when the region is entered
variable (V : (c : Dev nD) → (b : Ref sig .tc) → Buf (Elt Ideal) ((c : Thread nD τ).loc b))

/-! ## The body's arithmetic at an index -/

theorem lhs_row_2 (j : S5000x2.Idx) (q : dot_S5000x128_S128x2_S5000x2_1_0_0_1_n_n.contr.Idx) :
    (dot_S5000x128_S128x2_S5000x2_1_0_0_1_n_n.lhsIdx j q 0).val = (j 0).val := by
  unfold DotDims.lhsIdx
  rw [dif_neg (show ¬(0 : Fin S5000x128.rank) ∈ dot_S5000x128_S128x2_S5000x2_1_0_0_1_n_n.lhsBatch by decide), dif_pos (show (0 : Fin S5000x128.rank) ∈ dot_S5000x128_S128x2_S5000x2_1_0_0_1_n_n.lhsNonContracting by decide)]
  rfl
theorem lhs_col_2 (j : S5000x2.Idx) (q : dot_S5000x128_S128x2_S5000x2_1_0_0_1_n_n.contr.Idx) :
    (dot_S5000x128_S128x2_S5000x2_1_0_0_1_n_n.lhsIdx j q 1).val = (q ⟨0, by decide⟩).val :=
  dot_S5000x128_S128x2_S5000x2_1_0_0_1_n_n.lhsIdx_val_of_single rfl j q
theorem rhs_row_2 (j : S5000x2.Idx) (q : dot_S5000x128_S128x2_S5000x2_1_0_0_1_n_n.contr.Idx) :
    (dot_S5000x128_S128x2_S5000x2_1_0_0_1_n_n.rhsIdx j q 0).val = (q ⟨0, by decide⟩).val :=
  dot_S5000x128_S128x2_S5000x2_1_0_0_1_n_n.rhsIdx_val_of_single rfl j q
theorem rhs_col_2 (j : S5000x2.Idx) (q : dot_S5000x128_S128x2_S5000x2_1_0_0_1_n_n.contr.Idx) :
    (dot_S5000x128_S128x2_S5000x2_1_0_0_1_n_n.rhsIdx j q 1).val = (j 1).val := by
  unfold DotDims.rhsIdx
  rw [dif_neg (show ¬(1 : Fin S128x2.rank) ∈ dot_S5000x128_S128x2_S5000x2_1_0_0_1_n_n.rhsBatch by decide), dif_pos (show (1 : Fin S128x2.rank) ∈ dot_S5000x128_S128x2_S5000x2_1_0_0_1_n_n.rhsNonContracting by decide)]
  rfl

/-- Entry (p, k) of a [5000, 128] block of the left factor, for the block product's entry `j = (p, q)`. -/
abbrev lblk_2 (j : S5000x2.Idx) (k : Fin 128) : S5000x128.Idx := fun a => match a with
  | ⟨0, _⟩ => ⟨(j 0).val, (j 0).isLt⟩
  | ⟨1, _⟩ => ⟨k.val, k.isLt⟩
/-- Entry (k, q) of the [128, 2] right factor, for the block product's entry `j = (p, q)`. -/
abbrev rblk_2 (j : S5000x2.Idx) (k : Fin 128) : S128x2.Idx := fun a => match a with
  | ⟨0, _⟩ => ⟨k.val, k.isLt⟩
  | ⟨1, _⟩ => ⟨(j 1).val, (j 1).isLt⟩

/-- The body's arithmetic, entry by entry: a reshape to the same shape and a change of float format are the identity on the
    extended reals, and a matrix product into a zero accumulator is the sum of the 128 products along the contracted axis. -/
theorem pay_apply_2 (x0 : Vec Ideal S5000x128 .f32) (x1 : Vec Ideal S128x2 .f32) (j : S5000x2.Idx) :
    k2_pay1 (F := Ideal) x0 x1 j = ∑ k : Fin 128, x0 (lblk_2 j k) * x1 (rblk_2 j k) := by
  unfold k2_pay1
  simp only [shapeCast_self]
  refine (Ideal.matmul_constant_zero_apply dot_S5000x128_S128x2_S5000x2_1_0_0_1_n_n none _ _ j).trans ?_
  rw [← Equiv.sum_comp (ValueIdx.contrEquiv1 dot_S5000x128_S128x2_S5000x2_1_0_0_1_n_n 128 rfl rfl).symm]
  refine Finset.sum_congr rfl fun k _ => ?_
  have hk := ValueIdx.contrEquiv1_symm_val dot_S5000x128_S128x2_S5000x2_1_0_0_1_n_n 128 rfl rfl k
  have el : dot_S5000x128_S128x2_S5000x2_1_0_0_1_n_n.lhsIdx j ((ValueIdx.contrEquiv1 dot_S5000x128_S128x2_S5000x2_1_0_0_1_n_n 128 rfl rfl).symm k) = lblk_2 j k := funext fun a => Fin.ext (by
    match a with
    | ⟨0, _⟩ => exact lhs_row_2 _ _
    | ⟨1, _⟩ => exact (lhs_col_2 _ _).trans hk)
  have er : dot_S5000x128_S128x2_S5000x2_1_0_0_1_n_n.rhsIdx j ((ValueIdx.contrEquiv1 dot_S5000x128_S128x2_S5000x2_1_0_0_1_n_n 128 rfl rfl).symm k) = rblk_2 j k := funext fun a => Fin.ext (by
    match a with
    | ⟨0, _⟩ => exact (rhs_row_2 _ _).trans hk
    | ⟨1, _⟩ => exact rhs_col_2 _ _)
  rw [el, er]
  rfl

/-- The matrix product of the two operand arrays, entry by entry. -/
abbrev G_2 (a0 : (⟨S100000x128, .f32⟩ : BufTy).Contents (Elt Ideal)) (a4 : (⟨S128x2, .f32⟩ : BufTy).Contents (Elt Ideal)) :
    (⟨S100000x2, .f32⟩ : BufTy).Contents (Elt Ideal) := fun i => ∑ k : Fin 128, a0 (lidx2 i k) * a4 (ridx2 i k)

/-- Entry `j` of the body's result on two blocks is entry `i` of the arrays' product, when row `j 0` of the left block is row
    `i 0` of the left array and column `j 1` of the right block is column `i 1` of the right array. -/
theorem blk_eq_2 (x0 : Vec Ideal S5000x128 .f32) (x1 : Vec Ideal S128x2 .f32)
    (a0 : (⟨S100000x128, .f32⟩ : BufTy).Contents (Elt Ideal)) (a4 : (⟨S128x2, .f32⟩ : BufTy).Contents (Elt Ideal))
    (i : S100000x2.Idx) (j : S5000x2.Idx)
    (h0 : ∀ k : Fin 128, x0 (lblk_2 j k) = a0 (lidx2 i k)) (h1 : ∀ k : Fin 128, x1 (rblk_2 j k) = a4 (ridx2 i k)) :
    k2_pay1 (F := Ideal) x0 x1 j = G_2 a0 a4 i := by
  refine (pay_apply_2 x0 x1 j).trans ?_
  exact Finset.sum_congr rfl fun k _ => by rw [h0 k, h1 k]

/-! ## From blocks to the array -/

theorem hz_2 : (![0, 0] : Fin 2 → Nat) = fun _ => 0 := funext fun a => by fin_cases a <;> rfl

/-- The printed block-index maps over the grid: the left factor's and the product's blocks are at block row `t`, block column 0;
    the right factor's one block is the whole array. -/
theorem idx_facts_2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the operand arrays as the region finds them. -/
theorem flushed_eq_2 (c : Dev nD) (t : Fin cfg2.N) :
    (dat2 (F := Ideal) V c).flushed 2 t = ((cfg2.win 2).blk t).view.read (Elt Ideal) (G_2 (V c main_v46) (V c main_arg4)) := by
  show (cfg2.win 2).cut (grid2.coords t) ((dat2 (F := Ideal) V c).after 2 t) = _
  rw [after2_2]
  unfold out2_2
  rw [View.canon_unit_zero hz_2]
  simp only [View.ld_unit_zero (S := S5000x128) hz_2, View.ld_unit_zero (S := S128x2) hz_2]
  obtain ⟨e0, e1, e2, e3, e4, e5⟩ := idx_facts_2 t
  funext j
  show k2_pay1 (F := Ideal) (iblk2 V c 0 t) (iblk2 V c 1 t) j = G_2 (V c main_v46) (V c main_arg4) (((cfg2.win 2).blk t).view.emb j)
  have hj0 : (j 0).val < 5000 := (j 0).isLt
  have hj1 : (j 1).val < 2 := (j 1).isLt
  refine blk_eq_2 (iblk2 V c 0 t) (iblk2 V c 1 t) (V c main_v46) (V c main_arg4) (((cfg2.win 2).blk t).view.emb j) j (fun k => ?_) (fun k => ?_)
  · show V c main_v46 (((cfg2.win 0).blk t).view.emb (lblk_2 j k)) = V c main_v46 (lidx2 (((cfg2.win 2).blk t).view.emb j) k)
    refine congrArg _ ?_
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · show V c main_arg4 (((cfg2.win 1).blk t).view.emb (rblk_2 j k)) = V c main_arg4 (ridx2 (((cfg2.win 2).blk t).view.emb j) k)
    refine congrArg _ ?_
    funext a; apply Fin.ext
    match a with
    | ⟨0, _⟩ => show win2_1.index t (0 : Fin 2) * 128 + 1 * k.val = k.val; omega
    | ⟨1, _⟩ => show win2_1.index t (1 : Fin 2) * 2 + 1 * (j 1).val = win2_2.index t (1 : Fin 2) * 2 + 1 * (j 1).val; omega

/-- An index of the result array is in point `t`'s block iff each coordinate is in the block's range on its axis. -/
theorem mem_blk_2 (t : Fin cfg2.N) (i : S100000x2.Idx) :
    i ∈ ((cfg2.win 2).blk t).view.set ↔ ∀ a : Fin 2, win2_2.index t a * S5000x2.size a ≤ (i a).val ∧ (i a).val < win2_2.index t a * S5000x2.size a + S5000x2.size a := by
  show i ∈ ((View.whole main_v47).slice (win2_2.rect t)).set ↔ _
  rw [View.set_slice_whole, Rect.mem_set_unit]
  exact Iff.rfl

/-- Every entry of the result array is in the block of the point that handles its row: row `r` belongs to point `r / 5000`. -/
theorem cover_2 (i : S100000x2.Idx) :
    ∃ t : Fin cfg2.N, (cfg2.win 2).flush t = true ∧ i ∈ ((cfg2.win 2).blk t).view.set := by
  have hi0 : (i 0).val < 100000 := (i 0).isLt
  have hi1 : (i 1).val < 2 := (i 1).isLt
  have hN : cfg2.N = 20 := N_2
  have hlt : (i 0).val / 5000 < cfg2.N := by rw [hN]; omega
  obtain ⟨e0, e1, e2, e3, e4, e5⟩ := idx_facts_2 ⟨(i 0).val / 5000, hlt⟩
  refine ⟨⟨(i 0).val / 5000, hlt⟩, flush2_2 _, ?_⟩
  rw [mem_blk_2]
  intro a
  match a with
  | ⟨0, _⟩ =>
    show win2_2.index ⟨(i 0).val / 5000, hlt⟩ (0 : Fin 2) * 5000 ≤ (i 0).val ∧ (i 0).val < win2_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, hlt⟩ (1 : Fin 2) * 2 ≤ (i 1).val ∧ (i 1).val < win2_2.index ⟨(i 0).val / 5000, hlt⟩ (1 : Fin 2) * 2 + 2
    rw [e5]; omega

/-- The array the region leaves is the product of its operand arrays. -/
theorem final_2 (c : Dev nD) : (dat2 (F := Ideal) V c).arrAt 2 cfg2.N = G_2 (V c main_v46) (V c main_arg4) :=
  (dat2 (F := Ideal) V c).arrAt_eq_of_cover 2 (G_2 (V c main_v46) (V c main_arg4)) (fun t _ => flushed_eq_2 V c t) cover_2

theorem region2_value (c : Dev nD)
    (h : (⟨S100000x128, .f32⟩ : BufTy).Contents (Elt Ideal)) (x4 : (⟨S128x2, .f32⟩ : BufTy).Contents (Elt Ideal))
    (y : (⟨S100000x2, .f32⟩ : BufTy).Contents (Elt Ideal))
    (hh : V c main_v46 = h) (h4 : V c main_arg4 = x4) (hy : (dat2 (F := Ideal) V c).arrAt 2 cfg2.N = y) (i : S100000x2.Idx) :
    y i = ∑ k : Fin 128, h (lidx2 i k) * x4 (ridx2 i k) := by
  subst hh h4 hy
  exact congrFun (final_2 V c) i

end Cert.KernelIdeal.RegionValue

end
-- ==== Proof.Glue.lean ====
/-
  Two small facts that join the kernel's side to the reference's.
  The reference computes the graph's normalisation twice, by the same operations on the same edge list, so the two computations agree stage by stage; and a [128] vector recast as a [1, 128] row keeps its entries in row-major order.
-/
import proofs.«101370_j10874857193730_1_alg».proof.Proof.RefReadPatched
import proofs.«101370_j10874857193730_1_alg».proof.KernelIdeal
import proofs.«101370_j10874857193730_1_alg».proof.Proof.Gen.KernelIdeal
import Idealize.ShloMosaic.Lib.Pipeline.Value
import Idealize.ShloMosaic.Lib.ValueIdx

noncomputable section

namespace Cert.ReferenceIdeal.Twice

open Cert.ReferenceIdeal Cert.ReferenceIdeal.ReadP Idealize.ShloMosaic

variable (e : (⟨S2x1600000, .i32⟩ : BufTy).Contents (Elt Ideal))

/-! ## The second layer's normalisation is the first layer's

Each stage of the second computation applies the same operation as the matching stage of the first to operands already
shown equal: the index vector 0 … 99999, the source and destination lists with self-loops appended, the constants, the
degree (a scatter-add of ones at the destinations), its test against zero, its power -1/2, the selection between the
two, the index wrap-around, the two gathers, and their product. -/

theorem stage_v50_G : val_main_v50 (F := Ideal) = val_main_v5 (F := Ideal) := by
  unfold val_main_v50 val_main_v5
  rfl
theorem stage_v51_G : val_main_v51 (F := Ideal) e = val_main_v6 (F := Ideal) e := by
  unfold val_main_v51 val_main_v6
  rw [stage_v50_G]
theorem stage_v52_G : val_main_v52 (F := Ideal) e = val_main_v7 (F := Ideal) e := by
  unfold val_main_v52 val_main_v7
  rw [stage_v50_G]
theorem stage_cst_10_G : val_main_cst_10 (F := Ideal) = val_main_cst (F := Ideal) := by
  unfold val_main_cst_10 val_main_cst
  rfl
theorem stage_v53_G : val_main_v53 (F := Ideal) = val_main_v8 (F := Ideal) := by
  unfold val_main_v53 val_main_v8
  rw [stage_cst_10_G]
theorem stage_cst_11_G : val_main_cst_11 (F := Ideal) = val_main_cst_0 (F := Ideal) := by
  unfold val_main_cst_11 val_main_cst_0
  rfl
theorem stage_v54_G : val_main_v54 (F := Ideal) = val_main_v9 (F := Ideal) := by
  unfold val_main_v54 val_main_v9
  rw [stage_cst_11_G]
theorem stage_v55_G : val_main_v55 (F := Ideal) e = val_main_v10 (F := Ideal) e := by
  unfold val_main_v55 val_main_v10
  rw [stage_v52_G e]
theorem stage_v56_G : val_main_v56 (F := Ideal) e = val_main_v11 (F := Ideal) e := by
  unfold val_main_v56 val_main_v11
  rw [stage_v54_G, stage_v55_G e, stage_v53_G]
theorem stage_cst_12_G : val_main_cst_12 (F := Ideal) = val_main_cst_1 (F := Ideal) := by
  unfold val_main_cst_12 val_main_cst_1
  rfl
theorem stage_v57_G : val_main_v57 (F := Ideal) = val_main_v12 (F := Ideal) := by
  unfold val_main_v57 val_main_v12
  rw [stage_cst_12_G]
theorem stage_v58_G : val_main_v58 (F := Ideal) e = val_main_v13 (F := Ideal) e := by
  unfold val_main_v58 val_main_v13
  rw [stage_v56_G e, stage_v57_G]
theorem stage_cst_13_G : val_main_cst_13 (F := Ideal) = val_main_cst_2 (F := Ideal) := by
  unfold val_main_cst_13 val_main_cst_2
  rfl
theorem stage_v59_G : val_main_v59 (F := Ideal) = val_main_v14 (F := Ideal) := by
  unfold val_main_v59 val_main_v14
  rw [stage_cst_13_G]
theorem stage_v60_G : val_main_v60 (F := Ideal) e = val_main_v15 (F := Ideal) e := by
  unfold val_main_v60 val_main_v15
  rw [stage_v56_G e, stage_v59_G]
theorem stage_cst_14_G : val_main_cst_14 (F := Ideal) = val_main_cst_3 (F := Ideal) := by
  unfold val_main_cst_14 val_main_cst_3
  rfl
theorem stage_call2_v0_G : val_main_call2_v0 (F := Ideal) = val_main_call0_v0 (F := Ideal) := by
  unfold val_main_call2_v0 val_main_call0_v0
  rw [stage_cst_14_G]
theorem stage_call2_v1_G : val_main_call2_v1 (F := Ideal) = val_main_call0_v1 (F := Ideal) := by
  unfold val_main_call2_v1 val_main_call0_v1
  rw [stage_call2_v0_G]
theorem stage_v61_G : val_main_v61 (F := Ideal) e = val_main_v16 (F := Ideal) e := by
  unfold val_main_v61 val_main_v16
  rw [stage_v58_G e, stage_v60_G e, stage_call2_v1_G]
theorem stage_c_15_G : val_main_c_15 (F := Ideal) = val_main_c (F := Ideal) := by
  unfold val_main_c_15 val_main_c
  rfl
theorem stage_v62_G : val_main_v62 (F := Ideal) = val_main_v17 (F := Ideal) := by
  unfold val_main_v62 val_main_v17
  rw [stage_c_15_G]
theorem stage_v63_G : val_main_v63 (F := Ideal) e = val_main_v18 (F := Ideal) e := by
  unfold val_main_v63 val_main_v18
  rw [stage_v51_G e, stage_v62_G]
theorem stage_c_16_G : val_main_c_16 (F := Ideal) = val_main_c_4 (F := Ideal) := by
  unfold val_main_c_16 val_main_c_4
  rfl
theorem stage_v64_G : val_main_v64 (F := Ideal) = val_main_v19 (F := Ideal) := by
  unfold val_main_v64 val_main_v19
  rw [stage_c_16_G]
theorem stage_v65_G : val_main_v65 (F := Ideal) e = val_main_v20 (F := Ideal) e := by
  unfold val_main_v65 val_main_v20
  rw [stage_v51_G e, stage_v64_G]
theorem stage_v66_G : val_main_v66 (F := Ideal) e = val_main_v21 (F := Ideal) e := by
  unfold val_main_v66 val_main_v21
  rw [stage_v63_G e, stage_v65_G e, stage_v51_G e]
theorem stage_v67_G : val_main_v67 (F := Ideal) e = val_main_v22 (F := Ideal) e := by
  unfold val_main_v67 val_main_v22
  rw [stage_v66_G e]
theorem stage_v68_G : val_main_v68 (F := Ideal) e = val_main_v23 (F := Ideal) e := by
  unfold val_main_v68 val_main_v23
  rw [stage_v61_G e, stage_v67_G e]
theorem stage_c_17_G : val_main_c_17 (F := Ideal) = val_main_c_5 (F := Ideal) := by
  unfold val_main_c_17 val_main_c_5
  rfl
theorem stage_v69_G : val_main_v69 (F := Ideal) = val_main_v24 (F := Ideal) := by
  unfold val_main_v69 val_main_v24
  rw [stage_c_17_G]
theorem stage_v70_G : val_main_v70 (F := Ideal) e = val_main_v25 (F := Ideal) e := by
  unfold val_main_v70 val_main_v25
  rw [stage_v52_G e, stage_v69_G]
theorem stage_c_18_G : val_main_c_18 (F := Ideal) = val_main_c_6 (F := Ideal) := by
  unfold val_main_c_18 val_main_c_6
  rfl
theorem stage_v71_G : val_main_v71 (F := Ideal) = val_main_v26 (F := Ideal) := by
  unfold val_main_v71 val_main_v26
  rw [stage_c_18_G]
theorem stage_v72_G : val_main_v72 (F := Ideal) e = val_main_v27 (F := Ideal) e := by
  unfold val_main_v72 val_main_v27
  rw [stage_v52_G e, stage_v71_G]
theorem stage_v73_G : val_main_v73 (F := Ideal) e = val_main_v28 (F := Ideal) e := by
  unfold val_main_v73 val_main_v28
  rw [stage_v70_G e, stage_v72_G e, stage_v52_G e]
theorem stage_v74_G : val_main_v74 (F := Ideal) e = val_main_v29 (F := Ideal) e := by
  unfold val_main_v74 val_main_v29
  rw [stage_v73_G e]
theorem stage_v75_G : val_main_v75 (F := Ideal) e = val_main_v30 (F := Ideal) e := by
  unfold val_main_v75 val_main_v30
  rw [stage_v61_G e, stage_v74_G e]
theorem stage_v76_G : val_main_v76 (F := Ideal) e = val_main_v31 (F := Ideal) e := by
  unfold val_main_v76 val_main_v31
  rw [stage_v68_G e, stage_v75_G e]

/-- The second layer's source list (with self-loops) is the first layer's. -/
theorem src_twice : val_main_v51 (F := Ideal) e = val_main_v6 (F := Ideal) e := by
  exact stage_v51_G e
/-- The second layer's destination list (with self-loops) is the first layer's. -/
theorem dst_twice : val_main_v52 (F := Ideal) e = val_main_v7 (F := Ideal) e := by
  exact stage_v52_G e
/-- The second layer's edge weights are the first layer's. -/
theorem weight_twice : val_main_v76 (F := Ideal) e = val_main_v31 (F := Ideal) e := by
  exact stage_v76_G e

end Cert.ReferenceIdeal.Twice

namespace Cert.KernelIdeal.RunValue

open Cert.KernelIdeal Cert.KernelIdeal.Gen Idealize.ShloMosaic

/-- A [128] vector recast as a [1, 128] row reads, at (0, q), the vector at q: the row-major position of (0, q) in the
    row is q, its position in the vector. Stated for any evidence that the two shapes have the same number of entries. -/
theorem bias_row_anyG (x3 : (⟨S128, .f32⟩ : BufTy).Contents (Elt Ideal)) (h : S128.ShapeCasts S1x128) (j : S1x128.Idx) :
    shapeCast S1x128 x3 h j = x3 (Cert.ReferenceIdeal.ReadP.idx_main_v45 j) := by
  refine shapeCast_apply x3 h j (Cert.ReferenceIdeal.ReadP.idx_main_v45 j) ?_
  have h0 : (j 0).val < 1 := (j 0).isLt
  rw [Shape.rowMajor_val_one, Shape.rowMajor_val_two]
  show (j 1).val = (j 0).val * 128 + (j 1).val
  omega

/-- A [128] vector recast as a [1, 128] row reads, at (0, q), the vector at q. -/
theorem bias_row (x3 : (⟨S128, .f32⟩ : BufTy).Contents (Elt Ideal)) (j : S1x128.Idx) :
    shapeCast S1x128 x3 shapeCasts_S128_S1x128 j = x3 (Cert.ReferenceIdeal.ReadP.idx_main_v45 j) := by
  exact bias_row_anyG x3 shapeCasts_S128_S1x128 j

end Cert.KernelIdeal.RunValue

end
-- ==== Proof.KernelValue.lean ====
/-
  What the idealized kernel's buffers hold at each boundary between its segments, read back to the launch contents
  x (node features), e (the edge list), W1, b1, W2, b2.
  Before the first region the host computes, from e alone, the source and destination lists with one self-loop per node
  appended, the degree of every node, its inverse square root where the degree is positive, and the weight of every
  edge (the product of the two end nodes' inverse square roots). The first region leaves x·W1; the host gathers its rows
  by source, scales each by its edge's weight and sums them by destination; the second region adds b1 to every row and
  takes the positive part; the third leaves that times W2; and the host aggregates once more and adds b2.
  Every array named here is written as the corresponding stage of the reference computation (the functions
  `val_main_v…` of the reference read one operation at a time), so that the kernel's result is, at the end, the
  reference's result term.
-/
import proofs.«101370_j10874857193730_1_alg».proof.Proof.Gen.KernelIdeal.Frame
import proofs.«101370_j10874857193730_1_alg».proof.Proof.Region0
import proofs.«101370_j10874857193730_1_alg».proof.Proof.Region1
import proofs.«101370_j10874857193730_1_alg».proof.Proof.Region2
import proofs.«101370_j10874857193730_1_alg».proof.Proof.RefReadPatched
import proofs.«101370_j10874857193730_1_alg».proof.Proof.Glue
import Idealize.ShloMosaic.Lib.StableHlo.Run
import Idealize.ShloMosaic.Lib.Pipeline.Value

set_option maxRecDepth 16384

noncomputable section

namespace Cert.KernelIdeal.RunValue

open Cert.KernelIdeal Cert.KernelIdeal.Gen Cert.KernelIdeal.RegionValue
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A buffer's contents after a stretch of host operations: each operation's result at its own buffer, every other
    buffer as it was. -/
local macro "stretch" : tactic =>
  `(tactic| (simp only [hostOps0, hostOps0_1, hostOps0_2, hostOps1, hostOps3]; after_results_simp))

/-- A valuation of the kernel program's buffers at the ideal instance. -/
abbrev Val := Valuation τ sig (Elt Ideal)
/-- The edge list: two rows (sources, destinations) of 1600000 node numbers. -/
abbrev EdgeList := (⟨Cert.ReferenceIdeal.S2x1600000, .i32⟩ : BufTy).Contents (Elt Ideal)

/-! ## The host stretches, one at a time, from ANY entry contents `Wb`

Each lemma reads one buffer after one stretch from what the entry contents hold at the buffers the stretch reads. -/

section Stretches
variable (Wb : Val) (e : EdgeList)

/-! ### First stretch: from the edge list alone -/

theorem s0_v5 (he : Wb (Proc.devRef .tc main_arg1) = e) :
    StableHlo.after hostOps0 Wb (Proc.devRef .tc main_v5) = Cert.ReferenceIdeal.ReadP.val_main_v6 (F := Ideal) e := by
  subst he; stretch; rfl
theorem s0_v6 (he : Wb (Proc.devRef .tc main_arg1) = e) :
    StableHlo.after hostOps0 Wb (Proc.devRef .tc main_v6) = Cert.ReferenceIdeal.ReadP.val_main_v7 (F := Ideal) e := by
  subst he; stretch; rfl
/-- Where the degree is positive. -/
theorem s0_v12 (he : Wb (Proc.devRef .tc main_arg1) = e) :
    StableHlo.after hostOps0 Wb (Proc.devRef .tc main_v12) = Cert.ReferenceIdeal.ReadP.val_main_v13 (F := Ideal) e := by
  subst he; stretch; rfl
/-- The degree to the power -1/2. -/
theorem s0_v14 (he : Wb (Proc.devRef .tc main_arg1) = e) :
    StableHlo.after hostOps0 Wb (Proc.devRef .tc main_v14) = Cert.ReferenceIdeal.ReadP.val_main_v15 (F := Ideal) e := by
  subst he; stretch; rfl
theorem s0_cst3 : StableHlo.after hostOps0 Wb (Proc.devRef .tc main_cst_3) = Cert.ReferenceIdeal.ReadP.val_main_cst_3 (F := Ideal) := by
  stretch; rfl
theorem s0_arg0 : StableHlo.after hostOps0 Wb (Proc.devRef .tc main_arg0) = Wb (Proc.devRef .tc main_arg0) := by stretch
theorem s0_arg2 : StableHlo.after hostOps0 Wb (Proc.devRef .tc main_arg2) = Wb (Proc.devRef .tc main_arg2) := by stretch
theorem s0_arg3 : StableHlo.after hostOps0 Wb (Proc.devRef .tc main_arg3) = Wb (Proc.devRef .tc main_arg3) := by stretch
theorem s0_arg4 : StableHlo.after hostOps0 Wb (Proc.devRef .tc main_arg4) = Wb (Proc.devRef .tc main_arg4) := by stretch
theorem s0_arg5 : StableHlo.after hostOps0 Wb (Proc.devRef .tc main_arg5) = Wb (Proc.devRef .tc main_arg5) := by stretch

/-! ### Second stretch: the inverse square root where the degree is positive, zero elsewhere -/

/-! ### The inlined call's typed references: contents carried along `ty_eq` are the contents -/

theorem ofBuf_cst3 (v : main_cst_3.ty.Contents (Elt Ideal)) :
    (TRef.of (T := ⟨S_, .f32⟩) main_cst_3).ofBuf v = v := rfl
theorem toBuf_c0v0 (v : (⟨S_, .f32⟩ : BufTy).Contents (Elt Ideal)) :
    (TRef.of (T := ⟨S_, .f32⟩) main_call0_v0).toBuf v = v := rfl
theorem ofBuf_c0v0 (v : main_call0_v0.ty.Contents (Elt Ideal)) :
    (TRef.of (T := ⟨S_, .f32⟩) main_call0_v0).ofBuf v = v := rfl
theorem toBuf_c0v1 (v : (⟨S100000, .f32⟩ : BufTy).Contents (Elt Ideal)) :
    (TRef.of (T := ⟨S100000, .f32⟩) main_call0_v1).toBuf v = v := rfl
theorem ofBuf_c0v1 (v : main_call0_v1.ty.Contents (Elt Ideal)) :
    (TRef.of (T := ⟨S100000, .f32⟩) main_call0_v1).ofBuf v = v := rfl
theorem ofBuf_v12 (v : main_v12.ty.Contents (Elt Ideal)) :
    (TRef.of (T := ⟨S100000, .i1⟩) main_v12).ofBuf v = v := rfl
theorem ofBuf_v14 (v : main_v14.ty.Contents (Elt Ideal)) :
    (TRef.of (T := ⟨S100000, .f32⟩) main_v14).ofBuf v = v := rfl
theorem toBuf_v15 (v : (⟨S100000, .f32⟩ : BufTy).Contents (Elt Ideal)) :
    (TRef.of (T := ⟨S100000, .f32⟩) main_v15).toBuf v = v := rfl

theorem s1_v15 (h12 : Wb (Proc.devRef .tc main_v12) = Cert.ReferenceIdeal.ReadP.val_main_v13 (F := Ideal) e)
    (h14 : Wb (Proc.devRef .tc main_v14) = Cert.ReferenceIdeal.ReadP.val_main_v15 (F := Ideal) e)
    (hc : Wb (Proc.devRef .tc main_cst_3) = Cert.ReferenceIdeal.ReadP.val_main_cst_3 (F := Ideal)) :
    StableHlo.after hostOps0_1 Wb (Proc.devRef .tc main_v15) = Cert.ReferenceIdeal.ReadP.val_main_v16 (F := Ideal) e := by
  stretch
  simp only [ofBuf_cst3, toBuf_c0v0, ofBuf_c0v0, toBuf_c0v1, ofBuf_c0v1, ofBuf_v12, ofBuf_v14, toBuf_v15]
  rw [h12, h14, hc]; rfl
theorem s1_v5 : StableHlo.after hostOps0_1 Wb (Proc.devRef .tc main_v5) = Wb (Proc.devRef .tc main_v5) := by stretch
theorem s1_v6 : StableHlo.after hostOps0_1 Wb (Proc.devRef .tc main_v6) = Wb (Proc.devRef .tc main_v6) := by stretch
theorem s1_arg0 : StableHlo.after hostOps0_1 Wb (Proc.devRef .tc main_arg0) = Wb (Proc.devRef .tc main_arg0) := by stretch
theorem s1_arg2 : StableHlo.after hostOps0_1 Wb (Proc.devRef .tc main_arg2) = Wb (Proc.devRef .tc main_arg2) := by stretch
theorem s1_arg3 : StableHlo.after hostOps0_1 Wb (Proc.devRef .tc main_arg3) = Wb (Proc.devRef .tc main_arg3) := by stretch
theorem s1_arg4 : StableHlo.after hostOps0_1 Wb (Proc.devRef .tc main_arg4) = Wb (Proc.devRef .tc main_arg4) := by stretch
theorem s1_arg5 : StableHlo.after hostOps0_1 Wb (Proc.devRef .tc main_arg5) = Wb (Proc.devRef .tc main_arg5) := by stretch

/-! ### Third stretch: the edge weights -/

theorem s2_v30 (h15 : Wb (Proc.devRef .tc main_v15) = Cert.ReferenceIdeal.ReadP.val_main_v16 (F := Ideal) e)
    (h5 : Wb (Proc.devRef .tc main_v5) = Cert.ReferenceIdeal.ReadP.val_main_v6 (F := Ideal) e)
    (h6 : Wb (Proc.devRef .tc main_v6) = Cert.ReferenceIdeal.ReadP.val_main_v7 (F := Ideal) e) :
    StableHlo.after hostOps0_2 Wb (Proc.devRef .tc main_v30) = Cert.ReferenceIdeal.ReadP.val_main_v31 (F := Ideal) e := by
  stretch; rw [h15, h5, h6]; rfl
theorem s2_v5 : StableHlo.after hostOps0_2 Wb (Proc.devRef .tc main_v5) = Wb (Proc.devRef .tc main_v5) := by stretch
theorem s2_v6 : StableHlo.after hostOps0_2 Wb (Proc.devRef .tc main_v6) = Wb (Proc.devRef .tc main_v6) := by stretch
theorem s2_arg0 : StableHlo.after hostOps0_2 Wb (Proc.devRef .tc main_arg0) = Wb (Proc.devRef .tc main_arg0) := by stretch
theorem s2_arg2 : StableHlo.after hostOps0_2 Wb (Proc.devRef .tc main_arg2) = Wb (Proc.devRef .tc main_arg2) := by stretch
theorem s2_arg3 : StableHlo.after hostOps0_2 Wb (Proc.devRef .tc main_arg3) = Wb (Proc.devRef .tc main_arg3) := by stretch
theorem s2_arg4 : StableHlo.after hostOps0_2 Wb (Proc.devRef .tc main_arg4) = Wb (Proc.devRef .tc main_arg4) := by stretch
theorem s2_arg5 : StableHlo.after hostOps0_2 Wb (Proc.devRef .tc main_arg5) = Wb (Proc.devRef .tc main_arg5) := by stretch

/-! ### Fourth stretch: the first aggregation, and the bias as a row -/

section Agg1
variable (x0 : (⟨Cert.ReferenceIdeal.S100000x16, .f32⟩ : BufTy).Contents (Elt Ideal)) (x2 : (⟨Cert.ReferenceIdeal.S16x128, .f32⟩ : BufTy).Contents (Elt Ideal))

/-- The rows of the first product gathered by source, each scaled by its edge's weight, summed by destination. -/
theorem s3_v44 (h31 : Wb (Proc.devRef .tc main_v31) = Cert.ReferenceIdeal.ReadP.val_main_v4 (F := Ideal) x0 x2)
    (h5 : Wb (Proc.devRef .tc main_v5) = Cert.ReferenceIdeal.ReadP.val_main_v6 (F := Ideal) e)
    (h6 : Wb (Proc.devRef .tc main_v6) = Cert.ReferenceIdeal.ReadP.val_main_v7 (F := Ideal) e)
    (h30 : Wb (Proc.devRef .tc main_v30) = Cert.ReferenceIdeal.ReadP.val_main_v31 (F := Ideal) e) :
    StableHlo.after hostOps1 Wb (Proc.devRef .tc main_v44) = Cert.ReferenceIdeal.ReadP.val_main_v44 (F := Ideal) x0 e x2 := by
  stretch; rw [h31, h5, h6, h30]; rfl
end Agg1
/-- The bias vector recast as one row. -/
theorem s3_v45 : StableHlo.after hostOps1 Wb (Proc.devRef .tc main_v45)
    = shapeCast S1x128 (Wb (Proc.devRef .tc main_arg3)) shapeCasts_S128_S1x128 := by
  stretch; rfl
theorem s3_v5 : StableHlo.after hostOps1 Wb (Proc.devRef .tc main_v5) = Wb (Proc.devRef .tc main_v5) := by stretch
theorem s3_v6 : StableHlo.after hostOps1 Wb (Proc.devRef .tc main_v6) = Wb (Proc.devRef .tc main_v6) := by stretch
theorem s3_v30 : StableHlo.after hostOps1 Wb (Proc.devRef .tc main_v30) = Wb (Proc.devRef .tc main_v30) := by stretch
theorem s3_arg4 : StableHlo.after hostOps1 Wb (Proc.devRef .tc main_arg4) = Wb (Proc.devRef .tc main_arg4) := by stretch
theorem s3_arg5 : StableHlo.after hostOps1 Wb (Proc.devRef .tc main_arg5) = Wb (Proc.devRef .tc main_arg5) := by stretch

/-! ### Last stretch: the second aggregation, plus the output bias -/

section Agg2
variable (x0 : (⟨Cert.ReferenceIdeal.S100000x16, .f32⟩ : BufTy).Contents (Elt Ideal)) (x2 : (⟨Cert.ReferenceIdeal.S16x128, .f32⟩ : BufTy).Contents (Elt Ideal)) (x3 : (⟨Cert.ReferenceIdeal.S128, .f32⟩ : BufTy).Contents (Elt Ideal)) (x4 : (⟨Cert.ReferenceIdeal.S128x2, .f32⟩ : BufTy).Contents (Elt Ideal)) (x5 : (⟨Cert.ReferenceIdeal.S2, .f32⟩ : BufTy).Contents (Elt Ideal))

theorem s4_v63 (h47 : Wb (Proc.devRef .tc main_v47) = Cert.ReferenceIdeal.ReadP.val_main_v49 (F := Ideal) x0 e x2 x3 x4)
    (h5 : Wb (Proc.devRef .tc main_v5) = Cert.ReferenceIdeal.ReadP.val_main_v6 (F := Ideal) e)
    (h6 : Wb (Proc.devRef .tc main_v6) = Cert.ReferenceIdeal.ReadP.val_main_v7 (F := Ideal) e)
    (h30 : Wb (Proc.devRef .tc main_v30) = Cert.ReferenceIdeal.ReadP.val_main_v31 (F := Ideal) e)
    (ha5 : Wb (Proc.devRef .tc main_arg5) = x5) :
    StableHlo.after hostOps3 Wb (Proc.devRef .tc main_v63) = Cert.ReferenceIdeal.ReadP.val_main_v92 (F := Ideal) x0 e x2 x3 x4 x5 := by
  stretch; rw [h47, h5, h6, h30, ha5]; rfl
end Agg2

end Stretches

/-! ## The boundaries of the run, from the launch memory -/

section Boundaries

/-- The launch contents of the six arguments. -/
abbrev a0 : (⟨Cert.ReferenceIdeal.S100000x16, .f32⟩ : BufTy).Contents (Elt Ideal) := m ((c : Thread nD τ).loc main_arg0)
abbrev a1 : EdgeList := m ((c : Thread nD τ).loc main_arg1)
abbrev a2 : (⟨Cert.ReferenceIdeal.S16x128, .f32⟩ : BufTy).Contents (Elt Ideal) := m ((c : Thread nD τ).loc main_arg2)
abbrev a3 : (⟨Cert.ReferenceIdeal.S128, .f32⟩ : BufTy).Contents (Elt Ideal) := m ((c : Thread nD τ).loc main_arg3)
abbrev a4 : (⟨Cert.ReferenceIdeal.S128x2, .f32⟩ : BufTy).Contents (Elt Ideal) := m ((c : Thread nD τ).loc main_arg4)
abbrev a5 : (⟨Cert.ReferenceIdeal.S2, .f32⟩ : BufTy).Contents (Elt Ideal) := m ((c : Thread nD τ).loc main_arg5)

/-! ### After the first stretch -/
theorem w1_v5 : W1 m ρ c (Proc.devRef .tc main_v5) = Cert.ReferenceIdeal.ReadP.val_main_v6 (F := Ideal) (a1 m c) := s0_v5 (W0 m ρ c) _ rfl
theorem w1_v6 : W1 m ρ c (Proc.devRef .tc main_v6) = Cert.ReferenceIdeal.ReadP.val_main_v7 (F := Ideal) (a1 m c) := s0_v6 (W0 m ρ c) _ rfl
theorem w1_v12 : W1 m ρ c (Proc.devRef .tc main_v12) = Cert.ReferenceIdeal.ReadP.val_main_v13 (F := Ideal) (a1 m c) := s0_v12 (W0 m ρ c) _ rfl
theorem w1_v14 : W1 m ρ c (Proc.devRef .tc main_v14) = Cert.ReferenceIdeal.ReadP.val_main_v15 (F := Ideal) (a1 m c) := s0_v14 (W0 m ρ c) _ rfl
theorem w1_cst3 : W1 m ρ c (Proc.devRef .tc main_cst_3) = Cert.ReferenceIdeal.ReadP.val_main_cst_3 (F := Ideal) := s0_cst3 (W0 m ρ c)
theorem w1_arg0 : W1 m ρ c (Proc.devRef .tc main_arg0) = (a0 m c) := (s0_arg0 (W0 m ρ c)).trans rfl
theorem w1_arg2 : W1 m ρ c (Proc.devRef .tc main_arg2) = (a2 m c) := (s0_arg2 (W0 m ρ c)).trans rfl
theorem w1_arg3 : W1 m ρ c (Proc.devRef .tc main_arg3) = (a3 m c) := (s0_arg3 (W0 m ρ c)).trans rfl
theorem w1_arg4 : W1 m ρ c (Proc.devRef .tc main_arg4) = (a4 m c) := (s0_arg4 (W0 m ρ c)).trans rfl
theorem w1_arg5 : W1 m ρ c (Proc.devRef .tc main_arg5) = (a5 m c) := (s0_arg5 (W0 m ρ c)).trans rfl

/-! ### After the second stretch -/
theorem w2_v15 : W2 m ρ c (Proc.devRef .tc main_v15) = Cert.ReferenceIdeal.ReadP.val_main_v16 (F := Ideal) (a1 m c) :=
  s1_v15 (W1 m ρ c) _ (w1_v12 m ρ c) (w1_v14 m ρ c) (w1_cst3 m ρ c)
theorem w2_v5 : W2 m ρ c (Proc.devRef .tc main_v5) = Cert.ReferenceIdeal.ReadP.val_main_v6 (F := Ideal) (a1 m c) := (s1_v5 (W1 m ρ c)).trans (w1_v5 m ρ c)
theorem w2_v6 : W2 m ρ c (Proc.devRef .tc main_v6) = Cert.ReferenceIdeal.ReadP.val_main_v7 (F := Ideal) (a1 m c) := (s1_v6 (W1 m ρ c)).trans (w1_v6 m ρ c)
theorem w2_arg0 : W2 m ρ c (Proc.devRef .tc main_arg0) = (a0 m c) := (s1_arg0 (W1 m ρ c)).trans (w1_arg0 m ρ c)
theorem w2_arg2 : W2 m ρ c (Proc.devRef .tc main_arg2) = (a2 m c) := (s1_arg2 (W1 m ρ c)).trans (w1_arg2 m ρ c)
theorem w2_arg3 : W2 m ρ c (Proc.devRef .tc main_arg3) = (a3 m c) := (s1_arg3 (W1 m ρ c)).trans (w1_arg3 m ρ c)
theorem w2_arg4 : W2 m ρ c (Proc.devRef .tc main_arg4) = (a4 m c) := (s1_arg4 (W1 m ρ c)).trans (w1_arg4 m ρ c)
theorem w2_arg5 : W2 m ρ c (Proc.devRef .tc main_arg5) = (a5 m c) := (s1_arg5 (W1 m ρ c)).trans (w1_arg5 m ρ c)

/-! ### After the third stretch: the first region's entry -/
theorem w3_v30 : W3 m ρ c (Proc.devRef .tc main_v30) = Cert.ReferenceIdeal.ReadP.val_main_v31 (F := Ideal) (a1 m c) :=
  s2_v30 (W2 m ρ c) _ (w2_v15 m ρ c) (w2_v5 m ρ c) (w2_v6 m ρ c)
theorem w3_v5 : W3 m ρ c (Proc.devRef .tc main_v5) = Cert.ReferenceIdeal.ReadP.val_main_v6 (F := Ideal) (a1 m c) := (s2_v5 (W2 m ρ c)).trans (w2_v5 m ρ c)
theorem w3_v6 : W3 m ρ c (Proc.devRef .tc main_v6) = Cert.ReferenceIdeal.ReadP.val_main_v7 (F := Ideal) (a1 m c) := (s2_v6 (W2 m ρ c)).trans (w2_v6 m ρ c)
theorem w3_arg0 : W3 m ρ c (Proc.devRef .tc main_arg0) = (a0 m c) := (s2_arg0 (W2 m ρ c)).trans (w2_arg0 m ρ c)
theorem w3_arg2 : W3 m ρ c (Proc.devRef .tc main_arg2) = (a2 m c) := (s2_arg2 (W2 m ρ c)).trans (w2_arg2 m ρ c)
theorem w3_arg3 : W3 m ρ c (Proc.devRef .tc main_arg3) = (a3 m c) := (s2_arg3 (W2 m ρ c)).trans (w2_arg3 m ρ c)
theorem w3_arg4 : W3 m ρ c (Proc.devRef .tc main_arg4) = (a4 m c) := (s2_arg4 (W2 m ρ c)).trans (w2_arg4 m ρ c)
theorem w3_arg5 : W3 m ρ c (Proc.devRef .tc main_arg5) = (a5 m c) := (s2_arg5 (W2 m ρ c)).trans (w2_arg5 m ρ c)

/-! ### After the first region: the product x·W1, everything else as entered -/
theorem w4_v31 : W4 m ρ c (Proc.devRef .tc main_v31) = Cert.ReferenceIdeal.ReadP.val_main_v4 (F := Ideal) (a0 m c) (a2 m c) := by
  refine (W4_arr m ρ c 2).trans ?_
  funext i
  rw [Cert.ReferenceIdeal.ReadP.val_main_v4_apply]
  exact region0_value (V3 m ρ) c (a0 m c) (a2 m c) _ (w3_arg0 m ρ c) (w3_arg2 m ρ c) rfl i
theorem w4_v5 : W4 m ρ c (Proc.devRef .tc main_v5) = Cert.ReferenceIdeal.ReadP.val_main_v6 (F := Ideal) (a1 m c) := (W4_of_ne m ρ c main_v5 (by decide)).trans (w3_v5 m ρ c)
theorem w4_v6 : W4 m ρ c (Proc.devRef .tc main_v6) = Cert.ReferenceIdeal.ReadP.val_main_v7 (F := Ideal) (a1 m c) := (W4_of_ne m ρ c main_v6 (by decide)).trans (w3_v6 m ρ c)
theorem w4_v30 : W4 m ρ c (Proc.devRef .tc main_v30) = Cert.ReferenceIdeal.ReadP.val_main_v31 (F := Ideal) (a1 m c) := (W4_of_ne m ρ c main_v30 (by decide)).trans (w3_v30 m ρ c)
theorem w4_arg3 : W4 m ρ c (Proc.devRef .tc main_arg3) = (a3 m c) := (W4_of_ne m ρ c main_arg3 (by decide)).trans (w3_arg3 m ρ c)
theorem w4_arg4 : W4 m ρ c (Proc.devRef .tc main_arg4) = (a4 m c) := (W4_of_ne m ρ c main_arg4 (by decide)).trans (w3_arg4 m ρ c)
theorem w4_arg5 : W4 m ρ c (Proc.devRef .tc main_arg5) = (a5 m c) := (W4_of_ne m ρ c main_arg5 (by decide)).trans (w3_arg5 m ρ c)

/-! ### After the fourth stretch: the second region's entry -/
theorem w5_v44 : W5 m ρ c (Proc.devRef .tc main_v44) = Cert.ReferenceIdeal.ReadP.val_main_v44 (F := Ideal) (a0 m c) (a1 m c) (a2 m c) :=
  s3_v44 (W4 m ρ c) _ _ _ (w4_v31 m ρ c) (w4_v5 m ρ c) (w4_v6 m ρ c) (w4_v30 m ρ c)
/-- The bias row: at (0, q) the bias vector at q. -/
theorem w5_v45 : W5 m ρ c (Proc.devRef .tc main_v45) = fun j => (a3 m c) (Cert.ReferenceIdeal.ReadP.idx_main_v45 j) := by
  refine (s3_v45 (W4 m ρ c)).trans ?_
  rw [w4_arg3 m ρ c]
  funext j
  exact bias_row (a3 m c) j
theorem w5_v5 : W5 m ρ c (Proc.devRef .tc main_v5) = Cert.ReferenceIdeal.ReadP.val_main_v6 (F := Ideal) (a1 m c) := (s3_v5 (W4 m ρ c)).trans (w4_v5 m ρ c)
theorem w5_v6 : W5 m ρ c (Proc.devRef .tc main_v6) = Cert.ReferenceIdeal.ReadP.val_main_v7 (F := Ideal) (a1 m c) := (s3_v6 (W4 m ρ c)).trans (w4_v6 m ρ c)
theorem w5_v30 : W5 m ρ c (Proc.devRef .tc main_v30) = Cert.ReferenceIdeal.ReadP.val_main_v31 (F := Ideal) (a1 m c) := (s3_v30 (W4 m ρ c)).trans (w4_v30 m ρ c)
theorem w5_arg4 : W5 m ρ c (Proc.devRef .tc main_arg4) = (a4 m c) := (s3_arg4 (W4 m ρ c)).trans (w4_arg4 m ρ c)
theorem w5_arg5 : W5 m ρ c (Proc.devRef .tc main_arg5) = (a5 m c) := (s3_arg5 (W4 m ρ c)).trans (w4_arg5 m ρ c)

/-! ### After the second region: the positive part of the aggregate plus the bias -/
theorem w6_v46 : W6 m ρ c (Proc.devRef .tc main_v46) = Cert.ReferenceIdeal.ReadP.val_main_v48 (F := Ideal) (a0 m c) (a1 m c) (a2 m c) (a3 m c) := by
  refine (W6_arr m ρ c 2).trans ?_
  funext i
  rw [Cert.ReferenceIdeal.ReadP.val_main_v48_apply, Cert.ReferenceIdeal.ReadP.val_main_v47_apply, Cert.ReferenceIdeal.ReadP.val_main_v46_apply, Cert.ReferenceIdeal.ReadP.val_main_v45_apply,
    Cert.ReferenceIdeal.ReadP.val_main_call1_v0_apply, Cert.ReferenceIdeal.ReadP.val_main_call1_cst_apply]
  exact region1_value (V5 m ρ) c _ _ _ (w5_v44 m ρ c) (w5_v45 m ρ c) rfl i
theorem w6_v5 : W6 m ρ c (Proc.devRef .tc main_v5) = Cert.ReferenceIdeal.ReadP.val_main_v6 (F := Ideal) (a1 m c) := (W6_of_ne m ρ c main_v5 (by decide)).trans (w5_v5 m ρ c)
theorem w6_v6 : W6 m ρ c (Proc.devRef .tc main_v6) = Cert.ReferenceIdeal.ReadP.val_main_v7 (F := Ideal) (a1 m c) := (W6_of_ne m ρ c main_v6 (by decide)).trans (w5_v6 m ρ c)
theorem w6_v30 : W6 m ρ c (Proc.devRef .tc main_v30) = Cert.ReferenceIdeal.ReadP.val_main_v31 (F := Ideal) (a1 m c) := (W6_of_ne m ρ c main_v30 (by decide)).trans (w5_v30 m ρ c)
theorem w6_arg4 : W6 m ρ c (Proc.devRef .tc main_arg4) = (a4 m c) := (W6_of_ne m ρ c main_arg4 (by decide)).trans (w5_arg4 m ρ c)
theorem w6_arg5 : W6 m ρ c (Proc.devRef .tc main_arg5) = (a5 m c) := (W6_of_ne m ρ c main_arg5 (by decide)).trans (w5_arg5 m ρ c)

/-! ### After the third region: that times W2 -/
theorem w7_v47 : W7 m ρ c (Proc.devRef .tc main_v47) = Cert.ReferenceIdeal.ReadP.val_main_v49 (F := Ideal) (a0 m c) (a1 m c) (a2 m c) (a3 m c) (a4 m c) := by
  refine (W7_arr m ρ c 2).trans ?_
  funext i
  rw [Cert.ReferenceIdeal.ReadP.val_main_v49_apply]
  exact region2_value (V6 m ρ) c _ (a4 m c) _ (w6_v46 m ρ c) (w6_arg4 m ρ c) rfl i
theorem w7_v5 : W7 m ρ c (Proc.devRef .tc main_v5) = Cert.ReferenceIdeal.ReadP.val_main_v6 (F := Ideal) (a1 m c) := (W7_of_ne m ρ c main_v5 (by decide)).trans (w6_v5 m ρ c)
theorem w7_v6 : W7 m ρ c (Proc.devRef .tc main_v6) = Cert.ReferenceIdeal.ReadP.val_main_v7 (F := Ideal) (a1 m c) := (W7_of_ne m ρ c main_v6 (by decide)).trans (w6_v6 m ρ c)
theorem w7_v30 : W7 m ρ c (Proc.devRef .tc main_v30) = Cert.ReferenceIdeal.ReadP.val_main_v31 (F := Ideal) (a1 m c) := (W7_of_ne m ρ c main_v30 (by decide)).trans (w6_v30 m ρ c)
theorem w7_arg5 : W7 m ρ c (Proc.devRef .tc main_arg5) = (a5 m c) := (W7_of_ne m ρ c main_arg5 (by decide)).trans (w6_arg5 m ρ c)

/-! ### At the end: the kernel's result is the reference's result term -/
theorem w8_v63 : W8 m ρ c (Proc.devRef .tc main_v63)
    = Cert.ReferenceIdeal.ReadP.val_main_v92 (F := Ideal) (a0 m c) (a1 m c) (a2 m c) (a3 m c) (a4 m c) (a5 m c) :=
  s4_v63 (W7 m ρ c) _ _ _ _ _ _ (w7_v47 m ρ c) (w7_v5 m ρ c) (w7_v6 m ρ c) (w7_v30 m ρ c) (w7_arg5 m ρ c)

end Boundaries

end Cert.KernelIdeal.RunValue

end
-- ==== Proof.lean ====
/-
  The certificate of a two-layer graph convolution against its plain reference.

  Both programs compute, from node features x [100000, 16], an edge list e [2, 1600000], weights W1 [16, 128], W2 [128, 2]
  and biases b1 [128], b2 [2]:
      out = A (max (A (x · W1) + b1, 0) · W2) + b2,
  where A is the normalised aggregation over the graph with one self-loop per node: a row for every edge, gathered
  by source, scaled by the edge's weight deg(source)^(-1/2) · deg(destination)^(-1/2), and summed by destination.
  The kernel computes the edge weights once and runs the two products and the bias-and-rectifier step as three
  pipelined regions over blocks of 5000 rows; the reference computes the weights once per layer and uses whole-array
  operations. At the ideal instance a change of float format is the identity and a product into a zero accumulator is
  the plain sum over the contracted axis, so each region's array is, entry by entry, the reference's array
  (Region0 / Region1 / Region2); the aggregations are the same operations applied to equal arrays (KernelValue, which
  walks the kernel's buffers from the launch memory to the result); and no law of the extended reals beyond that is
  used, so the precondition (finite inputs) is not opened.
  The idealisation rewrote nothing, so `preserves` is trivial; the three frames are the generated frame certificates
  and, for the reference, its run with the result dropped.
-/
import proofs.«101370_j10874857193730_1_alg».proof.Defs
import proofs.«101370_j10874857193730_1_alg».proof.Proof.Gen.Kernel
import proofs.«101370_j10874857193730_1_alg».proof.Proof.Gen.Kernel.Frame
import proofs.«101370_j10874857193730_1_alg».proof.Proof.Gen.KernelIdeal
import proofs.«101370_j10874857193730_1_alg».proof.Proof.Gen.KernelIdeal.Frame
import proofs.«101370_j10874857193730_1_alg».proof.Proof.Gen.ReferenceIdeal
import proofs.«101370_j10874857193730_1_alg».proof.Proof.Gen.Pre_finite_inputs
import proofs.«101370_j10874857193730_1_alg».proof.Proof.RefRunPatched
import proofs.«101370_j10874857193730_1_alg».proof.Proof.RefReadPatched
import proofs.«101370_j10874857193730_1_alg».proof.Proof.KernelRun
import proofs.«101370_j10874857193730_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealisation rewrote no operation. -/
theorem preserves : Cert.preserves_Kernel_KernelIdeal := trivial

/-- From memories agreeing on the six arguments both programs end with the same result: the reference's result term of
    the kernel's launch contents. The kernel's run ends with its result buffer at the last boundary's contents, which is
    that term; the reference's run ends at its own result term of its own arguments, which agree. -/
theorem algebraic : Cert.algebraic_KernelIdeal_ReferenceIdeal := by
  intro m ρ m' ρ' _ hagree
  refine ⟨fun c => Cert.ReferenceIdeal.ReadP.val_main_v92 (F := Ideal) (Cert.KernelIdeal.RunValue.a0 m c)
      (Cert.KernelIdeal.RunValue.a1 m c) (Cert.KernelIdeal.RunValue.a2 m c) (Cert.KernelIdeal.RunValue.a3 m c)
      (Cert.KernelIdeal.RunValue.a4 m c) (Cert.KernelIdeal.RunValue.a5 m c), ?_, ?_⟩
  · exact (θ_run Cert.KernelIdeal.defs _ _).mono
      (fun r h c => ⟨(h c).1.trans (Cert.KernelIdeal.RunValue.w8_v63 m ρ c), (h c).2⟩)
      (Cert.KernelIdeal.RunValue.run m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v92_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
